-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S50000x128 .f32) (main_arg1 : IVec S800000 32) (main_arg2 : IVec S800000 32) (main_arg3 : FVec F S128x128 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S5000x128 : Shape := ⟨2, ![5000, 128]⟩

abbrev nBuf : Space → Nat
  | .hbm => 33
  | .vmem => 9
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x128, .f32⟩
  | .hbm, ⟨15, _⟩ => ⟨S_, .f32⟩
  | .hbm, ⟨16, _⟩ => ⟨S50000x128, .f32⟩
  | .hbm, ⟨17, _⟩ => ⟨S800000x1, .i32⟩
  | .hbm, ⟨18, _⟩ => ⟨S50000x128, .f32⟩
  | .hbm, ⟨19, _⟩ => ⟨S_, .f32⟩
  | .hbm, ⟨20, _⟩ => ⟨S800000, .f32⟩
  | .hbm, ⟨21, _⟩ => ⟨S_, .f32⟩
  | .hbm, ⟨22, _⟩ => ⟨S50000, .f32⟩
  | .hbm, ⟨23, _⟩ => ⟨S800000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x128, .f32⟩
  | .hbm, ⟨30, _⟩ => ⟨S50000x128, .f32⟩
  | .hbm, ⟨31, _⟩ => ⟨S1x128, .f32⟩
  | .hbm, ⟨32, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 37
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x128, .f32⟩
  | .hbm, ⟨15, _⟩ => ⟨S_, .f32⟩
  | .hbm, ⟨16, _⟩ => ⟨S50000x128, .f32⟩
  | .hbm, ⟨17, _⟩ => ⟨S800000x1, .i32⟩
  | .hbm, ⟨18, _⟩ => ⟨S50000x128, .f32⟩
  | .hbm, ⟨19, _⟩ => ⟨S_, .f32⟩
  | .hbm, ⟨20, _⟩ => ⟨S800000, .f32⟩
  | .hbm, ⟨21, _⟩ => ⟨S_, .f32⟩
  | .hbm, ⟨22, _⟩ => ⟨S50000, .f32⟩
  | .hbm, ⟨23, _⟩ => ⟨S800000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x128, .f32⟩
  | .hbm, ⟨30, _⟩ => ⟨S50000x128, .f32⟩
  | .hbm, ⟨31, _⟩ => ⟨S50000x128, .f32⟩
  | .hbm, ⟨32, _⟩ => ⟨S50000x128, .f32⟩
  | .hbm, ⟨33, _⟩ => ⟨S50000x128, .f32⟩
  | .hbm, ⟨34, _⟩ => ⟨S1x128, .f32⟩
  | .hbm, ⟨35, _⟩ => ⟨S50000x128, .f32⟩
  | .hbm, ⟨36, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.BodyEntry.lean ====
/-
  What the kernel body stores, entry by entry, at the extended reals. The body holds a block of 5000 rows
  of the feature matrix and the same 5000 rows of the averaged neighbour features, both weight matrices
  whole, and the bias as one row. It rounds the four matrices to a narrower float format (at the
  extended reals a change of format is the identity), multiplies each block by its weight into a zero
  accumulator, adds the two products, and adds the bias row broadcast over the 5000 rows. So entry
  `(p, q)` of the stored block is the inner product of row `p` of the feature block with column `q` of
  the self weight, plus that of row `p` of the neighbour block with column `q` of the neighbour weight,
  plus entry `q` of the bias row.
-/
import proofs.«121102_j34102040330288_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Sage.Body

open Cert.KernelIdeal Cert.KernelIdeal.Gen Idealize.ShloMosaic Idealize.ShloMosaic.ValueIdx

/-- The left operand's row coordinate at an output entry is the entry's row. -/
theorem lhs_row (j : S5000x128.Idx) (κ : dot_S5000x128_S128x128_S5000x128_1_0_0_1_n_n.contr.Idx) : (dot_S5000x128_S128x128_S5000x128_1_0_0_1_n_n.lhsIdx j κ 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

/-- The right operand's column coordinate at an output entry is the entry's column. -/
theorem rhs_col (j : S5000x128.Idx) (κ : dot_S5000x128_S128x128_S5000x128_1_0_0_1_n_n.contr.Idx) : (dot_S5000x128_S128x128_S5000x128_1_0_0_1_n_n.rhsIdx j κ 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A [5000, 128] by [128, 128] product into the zero accumulator, at entry `(p, q)`: the inner product of
    row `p` of the left operand with column `q` of the right one, over the 128 contracted positions. -/
theorem matmul_entry {φ₁ φ₂ : FTy} (l : FVec Ideal S5000x128 φ₁) (r : FVec Ideal S128x128 φ₂) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (dot_S5000x128_S128x128_S5000x128_1_0_0_1_n_n.lhsIdx_val_of_single rfl _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (dot_S5000x128_S128x128_S5000x128_1_0_0_1_n_n.rhsIdx_val_of_single rfl _ _).trans hk
    | ⟨1, _⟩ => exact rhs_col _ _)
  rw [el, er]

/-- The stored block at entry `(p, q)`: two inner products of length 128 and the bias row's entry `q`. -/
theorem stored_entry (x0 x1 : Vec Ideal S5000x128 .f32) (x2 x3 : Vec Ideal S128x128 .f32) (x4 : Vec Ideal S1x128 .f32)
    (p : Fin 5000) (q : Fin 128) :
    k0_pay1 (F := Ideal) x0 x1 x2 x3 x4 (ix2 p q)
      = (∑ k : Fin 128, x0 (ix2 p k) * x2 (ix2 k q)) + (∑ k : Fin 128, x1 (ix2 p k) * x3 (ix2 k q)) + x4 (ix2 (0 : Fin 1) q) := by
  unfold k0_pay1
  refine (addf_apply _ _ (ix2 p q)).trans ?_
  refine congrArg₂ (· + ·) ((addf_apply _ _ (ix2 p q)).trans (congrArg₂ (· + ·) ?_ ?_)) ?_
  · exact matmul_entry _ _ p q
  · refine (matmul_entry _ _ p q).trans ?_
    rw [shapeCast_self]
    rfl
  · rw [shapeCast_self]
    exact broadcastTo_1b_ab_apply x4 _ p q

end Cert.Sage.Body

end
-- ==== Proof.SageSpec.lean ====
/-
  A mean-aggregating graph convolution ends in one affine map of two row-aligned matrices: row `r` of the
  result is `feat[r] · W_self + neigh[r] · W_neigh + bias`, where `neigh` holds each node's averaged
  neighbour features. This module states that last map as ONE function of its five arrays, entry by
  entry, over the extended reals: two inner products of length 128 and the bias entry of the column.
  It speaks of no program; both programs' results are later shown to be this function.
-/
import Idealize.ShloMosaic.PureOps.Ideal
import Idealize.ShloMosaic.Lib.ValueIdx

noncomputable section

namespace Cert.Sage

open Idealize.ShloMosaic Idealize.ShloMosaic.ValueIdx

/-- Entry `(r, c)` of `feat · W_self + neigh · W_neigh + bias`: the inner product of row `r` of `feat` with
    column `c` of `wSelf`, plus that of row `r` of `neigh` with column `c` of `wNeigh`, plus `bias c`. -/
def layerAt (feat neigh : (⟨2, ![50000, 128]⟩ : Shape).Idx → EReal) (wSelf wNeigh : (⟨2, ![128, 128]⟩ : Shape).Idx → EReal)
    (bias : (⟨1, ![128]⟩ : Shape).Idx → EReal) (r : Fin 50000) (c : Fin 128) : EReal :=
  (∑ k : Fin 128, feat (ix2 r k) * wSelf (ix2 k c)) + (∑ k : Fin 128, neigh (ix2 r k) * wNeigh (ix2 k c)) + bias (ix1 c)

/-- The whole [50000, 128] result, index by index. -/
def layer (feat neigh : (⟨2, ![50000, 128]⟩ : Shape).Idx → EReal) (wSelf wNeigh : (⟨2, ![128, 128]⟩ : Shape).Idx → EReal)
    (bias : (⟨1, ![128]⟩ : Shape).Idx → EReal) : (⟨2, ![50000, 128]⟩ : Shape).Idx → EReal :=
  fun i => layerAt feat neigh wSelf wNeigh bias (i 0) (i 1)

end Cert.Sage

end
-- ==== Proof.KernelLayer.lean ====
/-
  The kernel's result array, at the extended reals, is the layer of the arrays the region finds.
  The grid has ten points; point `t` holds rows `5000·t … 5000·t + 4999` of the feature matrix and of
  the averaged neighbour features, both weights and the bias row whole, and writes back rows
  `5000·t … 5000·t + 4999` of the result. An entry of a block sits in its array at block index times
  block size plus its own coordinate, so entry `(p, q)` of what point `t` writes is entry
  `(5000·t + p, q)` of the layer; the ten row blocks cover the 50000 rows (row `r` is in block `r / 5000`),
  hence the whole array ends at the layer. The averaged neighbour features are whatever the host
  operations before the region left in their buffer: that array enters as a variable `N` with the
  equation that names it, and is never opened here; the bias row is the bias vector given a leading
  unit axis. Reading a block is first stated for ANY array in the window's place, so that nothing
  about the arrays' contents is ever computed.
-/
import proofs.«121102_j34102040330288_1_alg».proof.Proof.Gen.KernelIdeal.Value
import proofs.«121102_j34102040330288_1_alg».proof.Proof.BodyEntry
import proofs.«121102_j34102040330288_1_alg».proof.Proof.SageSpec
import Idealize.ShloMosaic.Lib.Pipeline.Value
import Idealize.ShloMosaic.Lib.StableHlo.Run
import Idealize.ShloMosaic.Lib.ValueLayout

noncomputable section

namespace Cert.Sage.Kernel

open Cert.KernelIdeal Cert.KernelIdeal.Gen Idealize.ShloMosaic Idealize.ShloMosaic.TcCoe Idealize.SL.Sem
open Idealize.ShloMosaic.ValueIdx
open Idealize.ShloMosaic.Pipeline (Dat)

theorem origin : (![0, 0] : Fin 2 → Nat) = fun _ => 0 := funext fun a => by fin_cases a <;> rfl

/-- The block index of every window at every grid point: the row-blocked windows (features, neighbour
    features, result) are at block row `t`, the weights and the bias row at block (0, 0). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## A block of each input window, read in ANY array standing in the window's place -/

/-- Row `p` of window 0's block at point `t` is row `5000·t + p` of the array. -/
theorem rows_read0 (A : S50000x128.Idx → EReal) (t : Fin cfg0.N) (p : Fin 5000) (k : Fin 128) (r : Fin 50000)
    (hr : r.val = t.val * 5000 + p.val) :
    (((cfg0.win 0).blk t).view.read (Elt Ideal) A : Vec Ideal S5000x128 .f32) (ix2 p k) = A (ix2 r k) := by
  obtain ⟨e0, e1, -⟩ := block_index t
  rw [View.read_apply]
  show A _ = A _
  refine congrArg A (funext fun a => Fin.ext ?_)
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- Row `p` of window 1's block at point `t` is row `5000·t + p` of the array. -/
theorem rows_read1 (A : S50000x128.Idx → EReal) (t : Fin cfg0.N) (p : Fin 5000) (k : Fin 128) (r : Fin 50000)
    (hr : r.val = t.val * 5000 + p.val) :
    (((cfg0.win 1).blk t).view.read (Elt Ideal) A : Vec Ideal S5000x128 .f32) (ix2 p k) = A (ix2 r k) := by
  obtain ⟨-, -, e0, e1, -⟩ := block_index t
  rw [View.read_apply]
  show A _ = A _
  refine congrArg A (funext fun a => Fin.ext ?_)
  match a with
  | ⟨0, _⟩ => show win0_1.index t (0 : Fin 2) * 5000 + 1 * p.val = r.val; rw [e0, hr]; omega
  | ⟨1, _⟩ => show win0_1.index t (1 : Fin 2) * 128 + 1 * k.val = k.val; rw [e1]; omega

/-- Window 2's block is its whole array at every point. -/
theorem whole_read2 (A : S128x128.Idx → EReal) (t : Fin cfg0.N) (k q : Fin 128) :
    (((cfg0.win 2).blk t).view.read (Elt Ideal) A : Vec Ideal S128x128 .f32) (ix2 k q) = A (ix2 k q) := by
  obtain ⟨-, -, -, -, e0, e1, -⟩ := block_index t
  rw [View.read_apply]
  show A _ = A _
  refine congrArg A (funext fun a => Fin.ext ?_)
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- Window 3's block is its whole array at every point. -/
theorem whole_read3 (A : S128x128.Idx → EReal) (t : Fin cfg0.N) (k q : Fin 128) :
    (((cfg0.win 3).blk t).view.read (Elt Ideal) A : Vec Ideal S128x128 .f32) (ix2 k q) = A (ix2 k q) := by
  obtain ⟨-, -, -, -, -, -, e0, e1, -⟩ := block_index t
  rw [View.read_apply]
  show A _ = A _
  refine congrArg A (funext fun a => Fin.ext ?_)
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- Window 4's block is its whole one-row array at every point. -/
theorem whole_read4 (A : S1x128.Idx → EReal) (t : Fin cfg0.N) (q : Fin 128) :
    (((cfg0.win 4).blk t).view.read (Elt Ideal) A : Vec Ideal S1x128 .f32) (ix2 (0 : Fin 1) q) = A (ix2 (0 : Fin 1) q) := by
  obtain ⟨-, -, -, -, -, -, -, -, e0, e1, -⟩ := block_index t
  rw [View.read_apply]
  show A _ = A _
  refine congrArg A (funext fun a => Fin.ext ?_)
  match a with
  | ⟨0, _⟩ => show win0_4.index t (0 : Fin 2) * 1 + 1 * (0 : Fin 1).val = (0 : Fin 1).val; rw [e0]; rfl
  | ⟨1, _⟩ => show win0_4.index t (1 : Fin 2) * 128 + 1 * q.val = q.val; rw [e1]; omega

/-! ## What a point writes back -/

/-- From blocks that are rows `5000·s …` of two matrices, two whole weights and a bias row, the stored
    block at `y` is the layer at the array index with `y`'s row moved down by `5000·s`. -/
theorem stored_is_layer (x0 x1 : Vec Ideal S5000x128 .f32) (x2 x3 : Vec Ideal S128x128 .f32) (x4 : Vec Ideal S1x128 .f32)
    (feat neigh : S50000x128.Idx → EReal) (wSelf wNeigh : S128x128.Idx → EReal) (bias : S128.Idx → EReal) (s : Nat)
    (h0 : ∀ (p : Fin 5000) (k : Fin 128) (r : Fin 50000), r.val = s * 5000 + p.val → x0 (ix2 p k) = feat (ix2 r k))
    (h1 : ∀ (p : Fin 5000) (k : Fin 128) (r : Fin 50000), r.val = s * 5000 + p.val → x1 (ix2 p k) = neigh (ix2 r k))
    (h2 : ∀ k q : Fin 128, x2 (ix2 k q) = wSelf (ix2 k q))
    (h3 : ∀ k q : Fin 128, x3 (ix2 k q) = wNeigh (ix2 k q))
    (h4 : ∀ q : Fin 128, x4 (ix2 (0 : Fin 1) q) = bias (ix1 q))
    (y : S5000x128.Idx) (i : S50000x128.Idx) (hi0 : (i 0).val = s * 5000 + (y 0).val) (hi1 : (i 1).val = (y 1).val) :
    k0_pay1 (F := Ideal) x0 x1 x2 x3 x4 y = Cert.Sage.layer feat neigh wSelf wNeigh bias i := by
  obtain ⟨p, q, rfl⟩ : ∃ (p : Fin 5000) (q : Fin 128), y = ix2 p q := ⟨y 0, y 1, eq_ix2 y⟩
  have hq : (i 1 : Fin 128) = q := Fin.ext hi1
  refine (Cert.Sage.Body.stored_entry x0 x1 x2 x3 x4 p q).trans ?_
  unfold Cert.Sage.layer Cert.Sage.layerAt
  rw [hq]
  refine congrArg₂ (· + ·) (congrArg₂ (· + ·) (Finset.sum_congr rfl fun k _ => ?_) (Finset.sum_congr rfl fun k _ => ?_)) (h4 q)
  · exact congrArg₂ (· * ·) (h0 p k (i 0) hi0) (h2 k q)
  · exact congrArg₂ (· * ·) (h1 p k (i 0) hi0) (h3 k q)

/-- With ANY arrays in the windows' places, what the body leaves at point `t`, read through the result
    window, is block `t` of the layer of those arrays (the bias read off the one-row array). -/
theorem writes_layer (A0 A1 : S50000x128.Idx → EReal) (A2 A3 : S128x128.Idx → EReal) (A4 : S1x128.Idx → EReal)
    (bias : S128.Idx → EReal) (hb : ∀ q : Fin 128, A4 (ix2 (0 : Fin 1) q) = bias (ix1 q)) (t : Fin cfg0.N) :
    (cfg0.win 5).cut (grid0.coords t)
        (out0_5 (F := Ideal) (((cfg0.win 0).blk t).view.read (Elt Ideal) A0) (((cfg0.win 1).blk t).view.read (Elt Ideal) A1)
          (((cfg0.win 2).blk t).view.read (Elt Ideal) A2) (((cfg0.win 3).blk t).view.read (Elt Ideal) A3)
          (((cfg0.win 4).blk t).view.read (Elt Ideal) A4))
      = ((cfg0.win 5).blk t).view.read (Elt Ideal) (Cert.Sage.layer A0 A1 A2 A3 bias) := by
  unfold out0_5
  rw [View.canon_unit_zero origin]
  simp only [View.ld_unit_zero (S := S5000x128) origin, View.ld_unit_zero (S := S128x128) origin, View.ld_unit_zero (S := S1x128) origin]
  obtain ⟨-, -, -, -, -, -, -, -, -, -, e0, e1⟩ := block_index t
  funext y
  show k0_pay1 (F := Ideal) (((cfg0.win 0).blk t).view.read (Elt Ideal) A0) (((cfg0.win 1).blk t).view.read (Elt Ideal) A1)
      (((cfg0.win 2).blk t).view.read (Elt Ideal) A2) (((cfg0.win 3).blk t).view.read (Elt Ideal) A3)
      (((cfg0.win 4).blk t).view.read (Elt Ideal) A4) y
    = Cert.Sage.layer A0 A1 A2 A3 bias (((cfg0.win 5).blk t).view.emb y)
  refine stored_is_layer (((cfg0.win 0).blk t).view.read (Elt Ideal) A0) (((cfg0.win 1).blk t).view.read (Elt Ideal) A1)
    (((cfg0.win 2).blk t).view.read (Elt Ideal) A2) (((cfg0.win 3).blk t).view.read (Elt Ideal) A3)
    (((cfg0.win 4).blk t).view.read (Elt Ideal) A4) A0 A1 A2 A3 bias t.val
    (fun p k r hr => rows_read0 A0 t p k r hr) (fun p k r hr => rows_read1 A1 t p k r hr)
    (fun k q => whole_read2 A2 t k q) (fun k q => whole_read3 A3 t k q) (fun q => (whole_read4 A4 t q).trans (hb q))
    y (((cfg0.win 5).blk t).view.emb y) ?_ ?_
  · show win0_5.index t (0 : Fin 2) * 5000 + 1 * (y 0).val = t.val * 5000 + (y 0).val
    rw [e0]; omega
  · show win0_5.index t (1 : Fin 2) * 128 + 1 * (y 1).val = (y 1).val
    rw [e1]; omega

/-! ## The ten row blocks cover the array -/

/-- An index is in point `t`'s block iff each coordinate is in the block's range on its axis. -/
theorem mem_block (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v20).slice (win0_5.rect t)).set ↔ _
  rw [View.set_slice_whole, Rect.mem_set_unit]
  exact Iff.rfl

/-- Row `r` lies in the block of point `r / 5000`. -/
theorem covered (i : S50000x128.Idx) :
    ∃ t : Fin cfg0.N, (cfg0.win 5).flush t = true ∧ i ∈ ((cfg0.win 5).blk t).view.set := by
  have hN : cfg0.N = 10 := N_0
  have h0 : (i 0).val < 50000 := (i 0).isLt
  have h1 : (i 1).val < 128 := (i 1).isLt
  have ht : (i 0).val / 5000 < cfg0.N := by rw [hN]; omega
  obtain ⟨-, -, -, -, -, -, -, -, -, -, e0, e1⟩ := block_index ⟨(i 0).val / 5000, ht⟩
  refine ⟨⟨(i 0).val / 5000, ht⟩, flush0_5 _, ?_⟩
  rw [mem_block]
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, ht⟩ (1 : Fin 2) * 128 ≤ (i 1).val ∧ (i 1).val < win0_5.index ⟨(i 0).val / 5000, ht⟩ (1 : Fin 2) * 128 + 128
    rw [e1]; omega

/-! ## The arrays the region finds -/

variable (m : (ℓ : Loc nD τ sig) → Buf (Elt Ideal) ℓ) (ρ : Dev nD → PrngReg)

/-- The bias row the region finds is the bias vector with a leading unit axis: the one host operation
    that writes its buffer is that reshape. -/
theorem bias_row (c : Dev nD) :
    (V m c main_v19 : S1x128.Idx → EReal)
      = shapeCast S1x128 (m ((c : Thread nD τ).loc main_arg5) : S128.Idx → EReal) shapeCasts_S128_S1x128 := by
  dsimp only [V, hostOps0]
  after_results_simp
  rfl

/-- Each input window's block at a point is its block of the array the region finds: the three staged
    arguments as launched, the bias row as above, and the averaged neighbour features as `N`. -/
theorem block0 (c : Dev nD) (t : Fin cfg0.N) :
    iblk m c 0 t = ((cfg0.win 0).blk t).view.read (Elt Ideal) (m ((c : Thread nD τ).loc main_arg0)) := by
  unfold iblk
  exact congrArg (((cfg0.win 0).blk t).view.read (Elt Ideal)) (V_main_arg0 m c)
theorem block1 (c : Dev nD) (N : S50000x128.Idx → EReal) (hN : (V m c main_v18 : S50000x128.Idx → EReal) = N) (t : Fin cfg0.N) :
    iblk m c 1 t = ((cfg0.win 1).blk t).view.read (Elt Ideal) N := by
  unfold iblk
  exact congrArg (((cfg0.win 1).blk t).view.read (Elt Ideal)) hN
theorem block2 (c : Dev nD) (t : Fin cfg0.N) :
    iblk m c 2 t = ((cfg0.win 2).blk t).view.read (Elt Ideal) (m ((c : Thread nD τ).loc main_arg3)) := by
  unfold iblk
  exact congrArg (((cfg0.win 2).blk t).view.read (Elt Ideal)) (V_main_arg3 m c)
theorem block3 (c : Dev nD) (t : Fin cfg0.N) :
    iblk m c 3 t = ((cfg0.win 3).blk t).view.read (Elt Ideal) (m ((c : Thread nD τ).loc main_arg4)) := by
  unfold iblk
  exact congrArg (((cfg0.win 3).blk t).view.read (Elt Ideal)) (V_main_arg4 m c)
theorem block4 (c : Dev nD) (t : Fin cfg0.N) :
    iblk m c 4 t = ((cfg0.win 4).blk t).view.read (Elt Ideal)
      (shapeCast S1x128 (m ((c : Thread nD τ).loc main_arg5) : S128.Idx → EReal) shapeCasts_S128_S1x128) := by
  unfold iblk
  exact congrArg (((cfg0.win 4).blk t).view.read (Elt Ideal)) (bias_row m c)

/-- The layer of the launch contents and of the averaged neighbour features `N`. -/
abbrev result (c : Dev nD) (N : S50000x128.Idx → EReal) : S50000x128.Idx → EReal :=
  Cert.Sage.layer (m ((c : Thread nD τ).loc main_arg0)) N (m ((c : Thread nD τ).loc main_arg3))
    (m ((c : Thread nD τ).loc main_arg4)) (m ((c : Thread nD τ).loc main_arg5))

/-- What point `t` writes back is block `t` of the layer. -/
theorem flushed_eq (c : Dev nD) (N : S50000x128.Idx → EReal) (hN : (V m c main_v18 : S50000x128.Idx → EReal) = N) (t : Fin cfg0.N) :
    (dats m 0 c).flushed 5 t = ((cfg0.win 5).blk t).view.read (Elt Ideal) (result m c N) := by
  rw [Cert.KernelIdeal.Value.flushed5, block0 m c t, block1 m c N hN t, block2 m c t, block3 m c t, block4 m c t]
  exact writes_layer (m ((c : Thread nD τ).loc main_arg0)) N (m ((c : Thread nD τ).loc main_arg3)) (m ((c : Thread nD τ).loc main_arg4))
    (shapeCast S1x128 (m ((c : Thread nD τ).loc main_arg5) : S128.Idx → EReal) shapeCasts_S128_S1x128)
    (m ((c : Thread nD τ).loc main_arg5)) (fun q => shapeCast_a_1a_apply _ _ (0 : Fin 1) q) t

/-! ## The array after the run, and the run -/

/-- After the run the result array is the layer. -/
theorem final (c : Dev nD) (N : S50000x128.Idx → EReal) (hN : (V m c main_v18 : S50000x128.Idx → EReal) = N) :
    (dats m 0 c).arrAt 5 cfg0.N = result m c N :=
  (dats m 0 c).arrAt_eq_of_cover 5 (result m c N) (fun t _ => flushed_eq m c N hN t) covered

/-- The kernel's run: every weakly fair execution terminates with the result array at the layer of the
    launch contents and of the averaged neighbour features the host operations left (`N`), and the
    arguments unchanged. -/
theorem run (N : Dev nD → S50000x128.Idx → EReal) (hN : ∀ c, (V m c main_v18 : S50000x128.Idx → EReal) = N c) :
    θ_run defs (onTc (τ := τ) (main (F := Ideal))) ⟨m, fun _ => 0, ρ⟩ fun r => ∀ c : Dev nD,
      r.2.mem ((c : Thread nD τ).loc main_v20) = result m c (N c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c (N c) (hN c)), (h c).2⟩)
    (Cert.KernelIdeal.Value.run_blocks m ρ)

end Cert.Sage.Kernel

end
-- ==== Proof.ReferenceLayer.lean ====
/-
  The reference computes the layer with two whole matrix products, an addition and a broadcast bias.
  Read entry by entry at the extended reals, each product is an inner product of length 128 over the
  contracted axis, the bias is read at the entry's column, and the three are added: that is
  `Cert.Sage.layer` of the feature matrix, the averaged neighbour features (whatever the host chain
  before them computes: it is carried as one array and never opened), the two weights and the bias.
-/
import proofs.«121102_j34102040330288_1_alg».proof.Proof.Gen.ReferenceIdeal.Read
import proofs.«121102_j34102040330288_1_alg».proof.Proof.SageSpec

noncomputable section

namespace Cert.Sage.Reference

open Cert.ReferenceIdeal Cert.ReferenceIdeal.Read Idealize.ShloMosaic Idealize.ShloMosaic.ValueIdx

/-- The left operand of a product is read at (row of the entry, contracted position). -/
theorem lhs_index (i : S50000x128.Idx) (k : Fin 128) : lidx_main_v19 i k = ix2 (i 0) k :=
  funext fun a => Fin.ext (by match a with | ⟨0, _⟩ => rfl | ⟨1, _⟩ => rfl)

/-- The right operand of a product is read at (contracted position, column of the entry). -/
theorem rhs_index (i : S50000x128.Idx) (k : Fin 128) : ridx_main_v19 i k = ix2 k (i 1) :=
  funext fun a => Fin.ext (by match a with | ⟨0, _⟩ => rfl | ⟨1, _⟩ => rfl)

/-- The bias, broadcast to a row and then over all rows, is read at the entry's column. -/
theorem bias_index (i : S50000x128.Idx) : idx_main_v22 (idx_main_v23 i) = ix1 (i 1) :=
  funext fun a => Fin.ext (by match a with | ⟨0, _⟩ => rfl)

/-- The product with the self weight at an entry: an inner product along the entry's row and column. -/
theorem self_entry (x0 : (⟨S50000x128, .f32⟩ : BufTy).Contents (Elt Ideal)) (x3 : (⟨S128x128, .f32⟩ : BufTy).Contents (Elt Ideal))
    (i : S50000x128.Idx) :
    val_main_v19 (F := Ideal) x0 x3 i = ∑ k : Fin 128, x0 (ix2 (i 0) k) * x3 (ix2 k (i 1)) :=
  (val_main_v19_apply x0 x3 i).trans (Finset.sum_congr rfl fun k _ =>
    congrArg₂ (· * ·) (congrArg x0 (lhs_index i k)) (congrArg x3 (rhs_index i k)))

/-- The product of the averaged neighbour features with the neighbour weight at an entry. -/
theorem neigh_entry (x0 : (⟨S50000x128, .f32⟩ : BufTy).Contents (Elt Ideal)) (x1 x2 : (⟨S800000, .i32⟩ : BufTy).Contents (Elt Ideal))
    (x4 : (⟨S128x128, .f32⟩ : BufTy).Contents (Elt Ideal)) (i : S50000x128.Idx) :
    val_main_v20 (F := Ideal) x0 x1 x2 x4 i
      = ∑ k : Fin 128, val_main_v18 (F := Ideal) x0 x1 x2 (ix2 (i 0) k) * x4 (ix2 k (i 1)) :=
  (val_main_v20_apply x0 x1 x2 x4 i).trans (Finset.sum_congr rfl fun k _ =>
    congrArg₂ (· * ·) (congrArg (val_main_v18 (F := Ideal) x0 x1 x2) (lhs_index i k)) (congrArg x4 (rhs_index i k)))

/-- The broadcast bias at an entry is the bias at the entry's column. -/
theorem bias_entry (x5 : (⟨S128, .f32⟩ : BufTy).Contents (Elt Ideal)) (i : S50000x128.Idx) :
    val_main_v23 (F := Ideal) x5 i = x5 (ix1 (i 1)) :=
  (val_main_v23_apply x5 i).trans ((val_main_v22_apply x5 (idx_main_v23 i)).trans (congrArg x5 (bias_index i)))

/-- The reference's result is the layer of its arguments and of the averaged neighbour features its
    own host chain computes (`val_main_v18`, kept whole). -/
theorem result_eq (x0 : (⟨S50000x128, .f32⟩ : BufTy).Contents (Elt Ideal)) (x1 x2 : (⟨S800000, .i32⟩ : BufTy).Contents (Elt Ideal))
    (x3 x4 : (⟨S128x128, .f32⟩ : BufTy).Contents (Elt Ideal)) (x5 : (⟨S128, .f32⟩ : BufTy).Contents (Elt Ideal)) :
    val_main_v24 (F := Ideal) x0 x1 x2 x3 x4 x5 = Cert.Sage.layer x0 (val_main_v18 (F := Ideal) x0 x1 x2) x3 x4 x5 :=
  funext fun i =>
    (addf_apply (val_main_v21 (F := Ideal) x0 x1 x2 x3 x4) (val_main_v23 (F := Ideal) x5) i).trans
      (congrArg₂ (· + ·)
        ((addf_apply (val_main_v19 (F := Ideal) x0 x3) (val_main_v20 (F := Ideal) x0 x1 x2 x4) i).trans
          (congrArg₂ (· + ·) (self_entry x0 x3 i) (neigh_entry x0 x1 x2 x4 i)))
        (bias_entry x5 i))

end Cert.Sage.Reference

end
-- ==== Proof.NeighbourChain.lean ====
/-
  Both programs compute the averaged neighbour features with the same chain of host operations: the
  source indices wrapped into range, the gather of the source rows, the scatter-add of those rows by
  destination, the scatter-add of ones (the in-degree), the degree clamped below by one, and the
  division of each summed row by its node's clamped degree. The chain is never opened: the array the
  kernel's region finds in that buffer is, operation for operation, the term the reference's stages
  build from the same three arguments.
-/
import proofs.«121102_j34102040330288_1_alg».proof.Proof.Gen.KernelIdeal.Frame
import proofs.«121102_j34102040330288_1_alg».proof.Proof.Gen.ReferenceIdeal.Read
import Idealize.ShloMosaic.Lib.StableHlo.Run

noncomputable section

namespace Cert.Sage.Chain

open Cert.KernelIdeal Cert.KernelIdeal.Gen Idealize.ShloMosaic Idealize.ShloMosaic.TcCoe Idealize.SL.Sem

variable (m : (ℓ : Loc nD τ sig) → Buf (Elt Ideal) ℓ)

set_option maxHeartbeats 2000000 in
/-- The averaged neighbour features the region finds are the reference's stage of the same name
    applied to the launch contents of the features, the sources and the destinations. -/
theorem neigh_eq (c : Dev nD) :
    (V m c main_v18 : S50000x128.Idx → EReal)
      = Cert.ReferenceIdeal.Read.val_main_v18 (F := Ideal) (m ((c : Thread nD τ).loc main_arg0))
          (m ((c : Thread nD τ).loc main_arg1)) (m ((c : Thread nD τ).loc main_arg2)) := by
  dsimp only [V, hostOps0]
  after_results_simp
  rfl

end Cert.Sage.Chain

end
-- ==== Proof.lean ====
/-
  A mean-aggregating graph convolution: the averaged neighbour features (a gather of the source rows,
  a scatter-add by destination, a division by the in-degree clamped below by one) are computed by the
  same host operations in both programs, and the layer
      out = feat · W_self + neigh · W_neigh + bias
  is computed by the kernel ten row blocks at a time (two products into zero accumulators on operands
  rounded to a narrower float format, an addition, and the bias row broadcast over the rows) and by the
  reference as two whole matrix products, an addition and a broadcast bias.

  At the extended reals a change of float format is the identity, a product into a zero accumulator is
  the inner product over the contracted axis, and so is the host's matrix product. Hence both results
  are ONE function of the arrays, entry by entry (`Cert.Sage.layer`: two inner products of length 128
  and the bias at the column). No algebraic law joins the two sides beyond that reading, so the
  finiteness of the inputs is never used. The host chain is carried as one array and never opened:
  `Cert.Sage.Chain.neigh_eq` says the array the kernel's region finds is the reference's stage of the
  same three arguments.

  The pieces: `SageSpec` (the layer), `BodyEntry` (what the body stores at an entry), `KernelLayer`
  (each point writes its block of the layer; the blocks cover the array; the kernel's run),
  `ReferenceLayer` (the reference's stages read at an entry), `NeighbourChain` (the shared host chain),
  and here the three frames, the idealization (no rewrite was made, so nothing to state) and the
  equality of the two results.
-/
import proofs.«121102_j34102040330288_1_alg».proof.Defs
import proofs.«121102_j34102040330288_1_alg».proof.Proof.Gen.Kernel
import proofs.«121102_j34102040330288_1_alg».proof.Proof.Gen.Kernel.Frame
import proofs.«121102_j34102040330288_1_alg».proof.Proof.Gen.KernelIdeal
import proofs.«121102_j34102040330288_1_alg».proof.Proof.Gen.KernelIdeal.Frame
import proofs.«121102_j34102040330288_1_alg».proof.Proof.Gen.KernelIdeal.Value
import proofs.«121102_j34102040330288_1_alg».proof.Proof.Gen.ReferenceIdeal
import proofs.«121102_j34102040330288_1_alg».proof.Proof.Gen.ReferenceIdeal.Run
import proofs.«121102_j34102040330288_1_alg».proof.Proof.Gen.ReferenceIdeal.Read
import proofs.«121102_j34102040330288_1_alg».proof.Proof.Gen.Pre_finite_inputs
import proofs.«121102_j34102040330288_1_alg».proof.Proof.KernelLayer
import proofs.«121102_j34102040330288_1_alg».proof.Proof.ReferenceLayer
import proofs.«121102_j34102040330288_1_alg».proof.Proof.NeighbourChain
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments as launched. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the layer of the launch contents and of the averaged neighbour features that
    the shared host chain computes from the features, the sources and the destinations. -/
theorem algebraic : Cert.algebraic_KernelIdeal_ReferenceIdeal := by
  intro m ρ m' ρ' _ hagree
  refine ⟨fun c => Cert.Sage.Kernel.result m c
      (Cert.ReferenceIdeal.Read.val_main_v18 (F := Ideal) (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2))),
    Cert.Sage.Kernel.run m ρ _ (fun c => Cert.Sage.Chain.neigh_eq m c), ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v24_eq, Cert.Sage.Reference.result_eq, a0, a1, a2, a3, a4, a5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
